-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x192 : S_.BroadcastsInDim S11008x192 (![] : Fin 0 → Fin S11008x192.rank)
  reducesTo_S11008x192_S_d0_1 : S11008x192.ReducesTo [0, 1] S_
  bcast_S_S192x4096 : S_.BroadcastsInDim S192x4096 (![] : Fin 0 → Fin S192x4096.rank)
  reducesTo_S192x4096_S_d0_1 : S192x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S11008 .f32) (main_v13 : IVec S_ 1) (main_v16 : IVec S192x4096 1) : IVec S_ 1 :=
  let main_c_5 : IVec S_ 1 := constantI S_ 1 1#1
  let main_v17 : IVec S_ 1 := (fun x v => Host.reduce IntOp.andi x v reducesTo_S192x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4x2048x4096 .f32) (main_arg1 : FVec F S11008x4096 .f32) (main_arg2 : FVec F S11008x192 .f32) (main_arg3 : FVec F S192x4096 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x192 .f32 := Host.absf main_arg2
  let main_cst_2 : FVec F S_ .f32 := constant S_ .f32 0x7F800000#32
  let main_v10 : FVec F S11008x192 .f32 := broadcastInDim S11008x192 ![] bcast_S_S11008x192 main_cst_2
  let main_v11 : IVec S11008x192 1 := cmpf .olt main_v9 main_v10
  let main_c_3 : IVec S_ 1 := constantI S_ 1 1#1
  let main_v12 : IVec S_ 1 := (fun x v => Host.reduce IntOp.andi x v reducesTo_S11008x192_S_d0_1 h_S_) main_v11 main_c_3
  let main_v13 : IVec S_ 1 := andi main_v8 main_v12
  let main_v14 : FVec F S192x4096 .f32 := Host.absf main_arg3
  let main_cst_4 : FVec F S_ .f32 := constant S_ .f32 0x7F800000#32
  let main_v15 : FVec F S192x4096 .f32 := broadcastInDim S192x4096 ![] bcast_S_S192x4096 main_cst_4
  let main_v16 : IVec S192x4096 1 := cmpf .olt main_v14 main_v15
  fn_part1 (F := F) main_arg4 main_v13 main_v16
-- ==== Kernel.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S128x4096 : Shape := ⟨2, ![128, 4096]⟩
abbrev S128x192 : Shape := ⟨2, ![128, 192]⟩
abbrev S128 : Shape := ⟨1, ![128]⟩
abbrev S128x1 : Shape := ⟨2, ![128, 1]⟩
abbrev S8192x4096 : Shape := ⟨2, ![8192, 4096]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x192, .f32⟩
  | .hbm, ⟨3, _⟩ => ⟨S192x4096, .f32⟩
  | .hbm, ⟨4, _⟩ => ⟨S11008, .f32⟩
  | .hbm, ⟨5, _⟩ => ⟨S11008x4096, .bf16⟩
  | .hbm, ⟨6, _⟩ => ⟨S8192x4096, .f32⟩
  | .hbm, ⟨7, _⟩ => ⟨S8192x4096, .bf16⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S128x4096, .f32⟩
  | .local _ .vmem, ⟨1, _⟩ => ⟨S128x4096, .f32⟩
  | .local _ .vmem, ⟨2, _⟩ => ⟨S128x192, .f32⟩
  | .local _ .vmem, ⟨3, _⟩ => ⟨S128x192, .f32⟩
  | .local _ .vmem, ⟨4, _⟩ => ⟨S192x4096, .f32⟩
  | .local _ .vmem, ⟨5, _⟩ => ⟨S128x4096, .bf16⟩
  | .local _ .vmem, ⟨6, _⟩ => ⟨S128x4096, .bf16⟩
  | .local _ .vmem, ⟨7, _⟩ => ⟨S1024x4096, .bf16⟩
  | .local _ .vmem, ⟨8, _⟩ => ⟨S1024x4096, .bf16⟩
  | .local _ .vmem, ⟨9, _⟩ => ⟨S256x4096, .bf16⟩
  | .local _ .vmem, ⟨10, _⟩ => ⟨S256x4096, .bf16⟩
  | .local _ .vmem, ⟨11, _⟩ => ⟨S1x256, .f32⟩
  | .local _ .vmem, ⟨12, _⟩ => ⟨S1x256, .f32⟩
  | .local _ .vmem, ⟨13, _⟩ => ⟨S1024x256, .f32⟩
  | .local _ .vmem, ⟨14, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S128x192_S128x192_0_0 : ∀ a, (![0, 0] : Fin 2 → Nat) a + S128x192.size a ≤ S128x192.size a
  h_S128x192 : 0 < S128x192.numel
  inb_S192x4096_S192x4096_0_0 : ∀ a, (![0, 0] : Fin 2 → Nat) a + S192x4096.size a ≤ S192x4096.size a
  h_S192x4096 : 0 < S192x4096.numel
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S128x192_S192x4096_S128x4096_1_0_0_1_n_n_wf : DotDims.WF S128x192 S192x4096 S128x4096 [1] [0] [0] [1] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S11008x4096.size a
  hwx0_0 : ∀ i : grid0.Coords, EltTy.bits .f32 = 32 ∨ (Rect.block (s := S11008x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S11008x192.size a
  hwx0_1 : ∀ i : grid0.Coords, EltTy.bits .f32 = 32 ∨ (Rect.block (s := S11008x192) S128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x4096.size a ≤ S192x4096.size a
  hwx0_2 : ∀ i : grid0.Coords, EltTy.bits .f32 = 32 ∨ (Rect.block (s := S192x4096) S192x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .bf16 = 32 ∨ (Rect.block (s := S11008x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S128x192_S192x4096_S128x4096_1_0_0_1_n_n : DotDims S128x192 S192x4096 S128x4096 where
  lhsContracting := [1]
  rhsContracting := [0]
  lhsNonContracting := [0]
  rhsNonContracting := [1]
  lhsBatch := []
  rhsBatch := []
  wf := dot_S128x192_S192x4096_S128x4096_1_0_0_1_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x192, .f32⟩
  | .hbm, ⟨3, _⟩ => ⟨S192x4096, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S11008, .f32⟩
  | .hbm, ⟨9, _⟩ => ⟨S11008x1, .f32⟩
  | .hbm, ⟨10, _⟩ => ⟨S_, .f32⟩
  | .hbm, ⟨11, _⟩ => ⟨S11008x1, .f32⟩
  | .hbm, ⟨12, _⟩ => ⟨S11008x1, .f32⟩
  | .hbm, ⟨13, _⟩ => ⟨S_, .f32⟩
  | .hbm, ⟨14, _⟩ => ⟨S11008, .f32⟩
  | .hbm, ⟨15, _⟩ => ⟨S11008x1, .f32⟩
  | .hbm, ⟨16, _⟩ => ⟨S_, .f32⟩
  | .hbm, ⟨17, _⟩ => ⟨S11008x1, .f32⟩
  | .hbm, ⟨18, _⟩ => ⟨S11008x1, .f32⟩
  | .hbm, ⟨19, _⟩ => ⟨S11008x1, .f32⟩
  | .hbm, ⟨20, _⟩ => ⟨S_, .f32⟩
  | .hbm, ⟨21, _⟩ => ⟨S11008x1, .f32⟩
  | .hbm, ⟨22, _⟩ => ⟨S11008x1, .f32⟩
  | .hbm, ⟨23, _⟩ => ⟨S_, .f32⟩
  | .hbm, ⟨24, _⟩ => ⟨S11008x1, .f32⟩
  | .hbm, ⟨25, _⟩ => ⟨S11008x1, .f32⟩
  | .hbm, ⟨26, _⟩ => ⟨S11008x1, .f32⟩
  | .hbm, ⟨27, _⟩ => ⟨S11008x1, .f32⟩
  | .hbm, ⟨28, _⟩ => ⟨S11008x1, .f32⟩
  | .hbm, ⟨29, _⟩ => ⟨S11008x4096, .f32⟩
  | .hbm, ⟨30, _⟩ => ⟨S11008x4096, .f32⟩
  | .hbm, ⟨31, _⟩ => ⟨S11008x4096, .f32⟩
  | .hbm, ⟨32, _⟩ => ⟨S11008x4096, .f32⟩
  | .hbm, ⟨33, _⟩ => ⟨S11008x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S11008x4096, .f32⟩
  | .hbm, ⟨38, _⟩ => ⟨S11008x4096, .f32⟩
  | .hbm, ⟨39, _⟩ => ⟨S_, .f32⟩
  | .hbm, ⟨40, _⟩ => ⟨S11008x4096, .f32⟩
  | .hbm, ⟨41, _⟩ => ⟨S11008x4096, .f32⟩
  | .hbm, ⟨42, _⟩ => ⟨S11008x4096, .f32⟩
  | .hbm, ⟨43, _⟩ => ⟨S11008x4096, .f32⟩
  | .hbm, ⟨44, _⟩ => ⟨S11008x4096, .f32⟩
  | .hbm, ⟨45, _⟩ => ⟨S11008x4096, .f32⟩
  | .hbm, ⟨46, _⟩ => ⟨S4x2048x11008, .f32⟩
  | .hbm, ⟨47, _⟩ => ⟨S1x1x11008, .f32⟩
  | .hbm, ⟨48, _⟩ => ⟨S4x2048x11008, .f32⟩
  | .hbm, ⟨49, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S11008x192_S192x4096_S11008x4096_1_0_0_1_n_n_wf : DotDims.WF S11008x192 S192x4096 S11008x4096 [1] [0] [0] [1] [] []
  dot_S4x2048x4096_S11008x4096_S4x2048x11008_2_1_01_0_n_n_wf : DotDims.WF S4x2048x4096 S11008x4096 S4x2048x11008 [2] [1] [0, 1] [0] [] []

variable [Facts₀]

def dot_S11008x192_S192x4096_S11008x4096_1_0_0_1_n_n : DotDims S11008x192 S192x4096 S11008x4096 where
  lhsContracting := [1]
  rhsContracting := [0]
  lhsNonContracting := [0]
  rhsNonContracting := [1]
  lhsBatch := []
  rhsBatch := []
  wf := dot_S11008x192_S192x4096_S11008x4096_1_0_0_1_n_n_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Run.lean ====
/-
  The idealized kernel's whole run, with its result named.

  The program is two kernel regions among three stretches of host operations: the quantizing region, a reshape of the
  activations with a change of float format and a reshape of the bias, the product region, and the reshape of the
  product to the result. Its run ends, on every device, with the result buffer at the last stretch's contents `W4` —
  the fold of the stretches and the regions' write-backs from the launch memory — and every argument as launched.
-/
import proofs.«153178_j27273042330117_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last stretch of host operations leaves and the five arguments as launched: the launch over the program's four
    segments, the last thread state read against the final memory. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.KernelDots.lean ====
/-
  The kernel's two matrix products, on the extended reals, read at an output index.

  The quantizing body multiplies a [128, 192] block of `Bd` by the whole [192, 4096] `Bu` into a zero accumulator: at
  (p, i) the sum over the 192 rank coordinates k of the left factor at (p, k) times the right at (k, i). The product
  body multiplies a [1024, 4096] block of activations by a [256, 4096] block of weights, contracting the SECOND axis of
  both, into a zero accumulator: at (r, q) the sum over the 4096 input coordinates k of the left factor at (r, k) times
  the right at (q, k).
-/
import proofs.«153178_j27273042330117_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## The low-rank product: rows times columns -/

local notation "DA" => dot_S128x192_S192x4096_S128x4096_1_0_0_1_n_n

theorem lowRank_lhs_row (j : S128x4096.Idx) (q : DotDims.contr DA |>.Idx) : (DotDims.lhsIdx DA j q 0).val = (j 0).val := by
  unfold DotDims.lhsIdx
  rw [dif_neg (show ¬(0 : Fin S128x192.rank) ∈ DotDims.lhsBatch DA by decide),
    dif_pos (show (0 : Fin S128x192.rank) ∈ DotDims.lhsNonContracting DA by decide)]
  rfl
theorem lowRank_lhs_k (j : S128x4096.Idx) (q : DotDims.contr DA |>.Idx) : (DotDims.lhsIdx DA j q 1).val = (q ⟨0, by decide⟩).val :=
  DotDims.lhsIdx_val_of_single DA rfl j q
theorem lowRank_rhs_k (j : S128x4096.Idx) (q : DotDims.contr DA |>.Idx) : (DotDims.rhsIdx DA j q 0).val = (q ⟨0, by decide⟩).val :=
  DotDims.rhsIdx_val_of_single DA rfl j q
theorem lowRank_rhs_col (j : S128x4096.Idx) (q : DotDims.contr DA |>.Idx) : (DotDims.rhsIdx DA j q 1).val = (j 1).val := by
  unfold DotDims.rhsIdx
  rw [dif_neg (show ¬(1 : Fin S192x4096.rank) ∈ DotDims.rhsBatch DA by decide),
    dif_pos (show (1 : Fin S192x4096.rank) ∈ DotDims.rhsNonContracting DA by decide)]
  rfl

/-- The low-rank product of a block's rows at (p, i). -/
theorem lowRank_apply (l : FVec Ideal S128x192 .f32) (r : FVec Ideal S192x4096 .f32) (p : Fin 128) (i : Fin 4096) :
    matmul DA (some .fp32) l r (constant S128x4096 .f32 0x00000000#32) (ix2 p i)
      = ∑ k : Fin 192, l (ix2 p k) * r (ix2 k i) := by
  simp only [matmul]
  rw [Ideal.matmul_constant_zero_apply, ← Equiv.sum_comp (contrEquiv1 DA 192 rfl rfl).symm]
  refine Finset.sum_congr rfl fun k _ => ?_
  have hk := contrEquiv1_symm_val DA 192 rfl rfl k
  have el : DotDims.lhsIdx DA (ix2 p i) ((contrEquiv1 DA 192 rfl rfl).symm k) = ix2 p k :=
    funext fun a => Fin.ext (by
      match a with
      | ⟨0, _⟩ => exact lowRank_lhs_row _ _
      | ⟨1, _⟩ => exact (lowRank_lhs_k _ _).trans hk)
  have er : DotDims.rhsIdx DA (ix2 p i) ((contrEquiv1 DA 192 rfl rfl).symm k) = ix2 k i :=
    funext fun a => Fin.ext (by
      match a with
      | ⟨0, _⟩ => exact (lowRank_rhs_k _ _).trans hk
      | ⟨1, _⟩ => exact lowRank_rhs_col _ _)
  rw [el, er]

/-! ## The linear layer's product: rows times rows -/

local notation "DB" => dot_S1024x4096_S256x4096_S1024x256_1_1_0_0_n_n

theorem linear_lhs_row (j : S1024x256.Idx) (q : DotDims.contr DB |>.Idx) : (DotDims.lhsIdx DB j q 0).val = (j 0).val := by
  unfold DotDims.lhsIdx
  rw [dif_neg (show ¬(0 : Fin S1024x4096.rank) ∈ DotDims.lhsBatch DB by decide),
    dif_pos (show (0 : Fin S1024x4096.rank) ∈ DotDims.lhsNonContracting DB by decide)]
  rfl
theorem linear_lhs_k (j : S1024x256.Idx) (q : DotDims.contr DB |>.Idx) : (DotDims.lhsIdx DB j q 1).val = (q ⟨0, by decide⟩).val :=
  DotDims.lhsIdx_val_of_single DB rfl j q
theorem linear_rhs_row (j : S1024x256.Idx) (q : DotDims.contr DB |>.Idx) : (DotDims.rhsIdx DB j q 0).val = (j 1).val := by
  unfold DotDims.rhsIdx
  rw [dif_neg (show ¬(0 : Fin S256x4096.rank) ∈ DotDims.rhsBatch DB by decide),
    dif_pos (show (0 : Fin S256x4096.rank) ∈ DotDims.rhsNonContracting DB by decide)]
  rfl
theorem linear_rhs_k (j : S1024x256.Idx) (q : DotDims.contr DB |>.Idx) : (DotDims.rhsIdx DB j q 1).val = (q ⟨0, by decide⟩).val :=
  DotDims.rhsIdx_val_of_single DB rfl j q

/-- The product of a block of activations with a block of weights, both contracted on their second axis, at (r, q). -/
theorem linear_apply (l : FVec Ideal S1024x4096 .bf16) (w : FVec Ideal S256x4096 .bf16) (r : Fin 1024) (q : Fin 256) :
    matmul DB none l w (constant S1024x256 .f32 0x00000000#32) (ix2 r q)
      = ∑ k : Fin 4096, l (ix2 r k) * w (ix2 q k) := by
  simp only [matmul]
  rw [Ideal.matmul_constant_zero_apply, ← Equiv.sum_comp (contrEquiv1 DB 4096 rfl rfl).symm]
  refine Finset.sum_congr rfl fun k _ => ?_
  have hk := contrEquiv1_symm_val DB 4096 rfl rfl k
  have el : DotDims.lhsIdx DB (ix2 r q) ((contrEquiv1 DB 4096 rfl rfl).symm k) = ix2 r k :=
    funext fun a => Fin.ext (by
      match a with
      | ⟨0, _⟩ => exact linear_lhs_row _ _
      | ⟨1, _⟩ => exact (linear_lhs_k _ _).trans hk)
  have er : DotDims.rhsIdx DB (ix2 r q) ((contrEquiv1 DB 4096 rfl rfl).symm k) = ix2 q k :=
    funext fun a => Fin.ext (by
      match a with
      | ⟨0, _⟩ => exact linear_rhs_row _ _
      | ⟨1, _⟩ => exact (linear_rhs_k _ _).trans hk)
  rw [el, er]

end Cert.KernelIdeal.Dots

end
-- ==== Proof.Spec.lean ====
/-
  What both programs compute, on the extended reals, index by index.

  The effective weight matrix is `W = weight + Bd · Bu`, an [11008, 4096] matrix whose entry (o, i) adds to the stored
  weight the sum over the 192 rank coordinates k of `Bd (o, k) · Bu (k, i)`. Each ROW of W is quantized by itself to
  sixteen levels: with `lo` the row's minimum and `hi` its maximum, both clamped against zero, the step is
  `s = max ((hi - lo) / 15) ε`, the zero point `z = round (-lo / s)` (to nearest, ties to even), and an entry x of
  the row becomes `(min 15 (max 0 (round (x / s) + z)) - z) · s`. The result at (b, t, o) is the sum over the 4096
  input coordinates k of `x (b, t, k)` times the quantized weight at (o, k), plus `bias o`.

  The float literals stay as the patterns the two programs print: only the zero pattern is ever evaluated.
-/
import Idealize.ShloMosaic.PureOps.Ideal
import Idealize.ShloMosaic.PureOps.Ideal.Laws
import Idealize.ShloMosaic.Lib.ValueIdx

noncomputable section

open scoped BigOperators

namespace Cert.QuantLinear

open Idealize.ShloMosaic Idealize.ShloMosaic.ValueIdx

/-- Round to the nearest integer, ties to even; the infinities fixed. -/
abbrev rne (x : EReal) : EReal := Ideal.liftRound Ideal.roundHalfEven x

/-- The quantization step of a row whose entries have minimum `lo` and maximum `hi`: a fifteenth of the spread of the
    two, each clamped against zero, and at least the printed `ε`. -/
def step (lo hi : EReal) : EReal :=
  max (Ideal.div (max hi (Ideal.ofBits .f32 0x00000000#32) - min lo (Ideal.ofBits .f32 0x00000000#32)) (Ideal.ofBits .f32 0x41700000#32))
    (Ideal.ofBits .f32 0x322BCC77#32)

/-- The row's zero point: minus its clamped minimum, in steps, rounded. -/
def zeroPoint (lo hi : EReal) : EReal :=
  rne (Ideal.div (-(min lo (Ideal.ofBits .f32 0x00000000#32))) (step lo hi))

/-- An entry `x` of such a row, quantized: rounded in steps, shifted by the zero point, clipped to [0, 15], shifted back and
    rescaled. -/
def quantize (lo hi x : EReal) : EReal :=
  (min (Ideal.ofBits .f32 0x41700000#32) (max (Ideal.ofBits .f32 0x00000000#32) (rne (Ideal.div x (step lo hi)) + zeroPoint lo hi))
    - zeroPoint lo hi) * step lo hi

/-- The minimum of a row of 4096 entries, folded from `+∞`'s pattern. -/
def rowMin (r : Fin 4096 → EReal) : EReal := (Finset.univ : Finset (Fin 4096)).fold min (Ideal.ofBits .f32 0x7F800000#32) r
/-- The maximum of a row of 4096 entries, folded from `-∞`'s pattern. -/
def rowMax (r : Fin 4096 → EReal) : EReal := (Finset.univ : Finset (Fin 4096)).fold max (Ideal.ofBits .f32 0xFF800000#32) r

/-- A row of 4096 entries quantized by its own minimum and maximum, read at column `i`. -/
def quantizeRow (r : Fin 4096 → EReal) (i : Fin 4096) : EReal := quantize (rowMin r) (rowMax r) (r i)

/-- Row `o` of the effective weights `weight + Bd · Bu`. -/
def effRow (weight : (⟨2, ![11008, 4096]⟩ : Shape).Idx → EReal) (Bd : (⟨2, ![11008, 192]⟩ : Shape).Idx → EReal)
    (Bu : (⟨2, ![192, 4096]⟩ : Shape).Idx → EReal) (o : Fin 11008) : Fin 4096 → EReal :=
  fun i => weight (ix2 o i) + ∑ k : Fin 192, Bd (ix2 o k) * Bu (ix2 k i)

/-- The quantized effective weights, an [11008, 4096] matrix: each row quantized by itself. -/
def qWeights (weight : (⟨2, ![11008, 4096]⟩ : Shape).Idx → EReal) (Bd : (⟨2, ![11008, 192]⟩ : Shape).Idx → EReal)
    (Bu : (⟨2, ![192, 4096]⟩ : Shape).Idx → EReal) : (⟨2, ![11008, 4096]⟩ : Shape).Idx → EReal :=
  fun j => quantizeRow (effRow weight Bd Bu (j 0)) (j 1)

/-- The result, a [4, 2048, 11008] array: the activations against the quantized effective weights, plus the bias. -/
def result (x : (⟨3, ![4, 2048, 4096]⟩ : Shape).Idx → EReal) (weight : (⟨2, ![11008, 4096]⟩ : Shape).Idx → EReal)
    (Bd : (⟨2, ![11008, 192]⟩ : Shape).Idx → EReal) (Bu : (⟨2, ![192, 4096]⟩ : Shape).Idx → EReal)
    (bias : (⟨1, ![11008]⟩ : Shape).Idx → EReal) : (⟨3, ![4, 2048, 11008]⟩ : Shape).Idx → EReal :=
  fun j => (∑ k : Fin 4096, x (ix3 (j 0) (j 1) k) * qWeights weight Bd Bu (ix2 (j 2) k)) + bias (ix1 (j 2))

/-- Zero minus an extended real is its negation: the kernel's spelling of the zero point's numerator is the reference's. -/
theorem zero_pattern_sub (a : EReal) : Ideal.ofBits .f32 0x00000000#32 - a = -a := by
  rw [Ideal.ofBits_zero_f32, zero_sub]

end Cert.QuantLinear

end
-- ==== Proof.LibRowMin.lean ====
/-
  Minima along one axis on the extended reals, and the host's one-axis reductions of a matrix read at a row.
  A lane minimum over the second axis of a matrix, read at a row: the fold of `min`, from the value of the
  accumulator's pattern, over that row's entries. A host reduction by minimum or by maximum over the second axis of an
  `[a, b]` matrix, read at row `r`: the fold, from the initial value, over that row's entries. General in the extents.
-/
import Idealize.ShloMosaic.Lib.ValueIdx
import Idealize.ShloMosaic.PureOps.Ideal.Laws

noncomputable section

namespace Cert.LibRowMin

open Idealize.ShloMosaic Idealize.ShloMosaic.ValueIdx

/-- On the extended reals a lane minimum over ONE axis is, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- On the extended reals a lane minimum over the second axis of an `[a, b]` matrix is, at row `r`, the fold of `min`
    from the accumulator's value over that row's entries. -/
theorem multiReduction_minimumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun d => src (ix2 r d)) := by
  refine (multiReduction_minimumf_single src acc h hφ hacc (ix1 r)).trans ?_
  refine congrArg (fun f => (Finset.univ : Finset (Fin b)).fold min (Ideal.ofBits .f32 acc) f) (funext fun d => ?_)
  refine congrArg src (funext fun ax => Fin.ext ?_)
  match ax with
  | ⟨0, _⟩ => rfl
  | ⟨1, _⟩ => rfl

/-- The host's reduction by minimum over the second axis of an `[a, b]` matrix, read at row `r`: the fold of `min` from the
    initial value over that row's entries. -/
theorem hostReduce_minimumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) (fun d => x (ix2 r d)) := by
  refine (Host.reduce_eq_fold_single (FloatOps.minimumf (F := Ideal) (φ := .f32)) x init h' h hu (ix1 r)).trans ?_
  refine congrArg (fun f => (Finset.univ : Finset (Fin b)).fold min (init (Shape.Idx.first hu)) f) (funext fun d => ?_)
  refine congrArg x (funext fun ax => Fin.ext ?_)
  match ax with
  | ⟨0, _⟩ => rfl
  | ⟨1, _⟩ => rfl

/-- The host's reduction by maximum over the second axis of an `[a, b]` matrix, read at row `r`: the fold of `max` from the
    initial value over that row's entries. -/
theorem hostReduce_maximumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

end Cert.LibRowMin

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.QuantBody.lean ====
/-
  The quantizing body's stored value, on the extended reals, read at (p, i): row `p` of the block of effective weights —
  the weights' block plus the low-rank product of the block of `Bd` with `Bu` — quantized by its own minimum and maximum.

  The body takes the row's minimum and maximum as lane reductions over the second axis, keeps them as a column of
  shape [128, 1], computes the step and the zero point on that column and broadcasts both back over the 4096 columns;
  its clip is `min 15 (max 0 ·)`; the closing change of float format is the identity.
-/
import proofs.«153178_j27273042330117_2_alg».proof.Proof.Gen.KernelIdeal.Skeleton
import proofs.«153178_j27273042330117_2_alg».proof.Proof.KernelDots
import proofs.«153178_j27273042330117_2_alg».proof.Proof.Spec
import proofs.«153178_j27273042330117_2_alg».proof.Proof.LibRowMin
import proofs.«153178_j27273042330117_2_alg».proof.Proof.LibRowMax
import proofs.«153178_j27273042330117_2_alg».proof.Proof.LibKeepdims

noncomputable section

open scoped BigOperators

namespace Cert.KernelIdeal.QuantBody

open Cert.KernelIdeal Cert.KernelIdeal.Gen Idealize.ShloMosaic Idealize.ShloMosaic.ValueIdx
open Cert.QuantLinear

/-- Row `p` of a block's effective weights: the weights' row plus the low-rank product's. -/
def blkRow (x1 : Vec Ideal S128x192 .f32) (x2 : Vec Ideal S192x4096 .f32) (x0 : Vec Ideal S128x4096 .f32) (p : Fin 128) :
    Fin 4096 → EReal :=
  fun d => x0 (ix2 p d) + ∑ k : Fin 192, x1 (ix2 p k) * x2 (ix2 k d)

/-- The lane minimum over the second axis of a [128, 4096] block, at row `p`. -/
theorem laneMin_at (w : FVec Ideal S128x4096 .f32) (hφ : FKind.Formats .f32)
    (hacc : (0x7F800000#32 : BitVec 32) = 0x7F800000#32) (p : Fin 128) :
    multiReduction .minimumf [1] S128 w 0x7F800000#32 reduces_S128x4096_S128 hφ hacc (ix1 p)
      = rowMin (fun d => w (ix2 p d)) :=
  Cert.LibRowMin.multiReduction_minimumf_rows w 0x7F800000#32 reduces_S128x4096_S128 hφ hacc p

/-- The lane maximum over the second axis of a [128, 4096] block, at row `p`. -/
theorem laneMax_at (w : FVec Ideal S128x4096 .f32) (hφ : FKind.Formats .f32)
    (hacc : (0xFF800000#32 : BitVec 32) = 0xFF800000#32) (p : Fin 128) :
    multiReduction .maximumf [1] S128 w 0xFF800000#32 reduces_S128x4096_S128 hφ hacc (ix1 p)
      = rowMax (fun d => w (ix2 p d)) :=
  Cert.LibRowMax.multiReduction_maximumf_rows w 0xFF800000#32 reduces_S128x4096_S128 hφ hacc p

/-- The kept unit axis: the column at (p, 0) is the reduced vector at `p`. -/
theorem column_at (v : FVec Ideal S128 .f32) (p : Fin 128) :
    shapeCast S128x1 v shapeCasts_S128_S128x1 (ix2 p (0 : Fin 1)) = v (ix1 p) :=
  Cert.LibKeepdims.shapeCast_a_a1_apply v shapeCasts_S128_S128x1 p 0

/-- A column broadcast over the 4096 columns reads, at (p, i), the column at (p, 0). -/
theorem spread_at (v : FVec Ideal S128x1 .f32) (p : Fin 128) (i : Fin 4096) :
    broadcastTo S128x4096 v broadcasts_S128x1_S128x4096 (ix2 p i) = v (ix2 p (0 : Fin 1)) :=
  Cert.LibKeepdims.broadcastTo_a1_ab_apply v broadcasts_S128x1_S128x4096 p i

/-- THE STORED VALUE at (p, i). -/
theorem pay_at (x1 : Vec Ideal S128x192 .f32) (x2 : Vec Ideal S192x4096 .f32) (x0 : Vec Ideal S128x4096 .f32)
    (p : Fin 128) (i : Fin 4096) :
    k0_pay1 (F := Ideal) x1 x2 x0 (ix2 p i) = quantizeRow (blkRow x1 x2 x0 p) i := by
  unfold k0_pay1
  simp only [truncf_apply, mulf_apply, subf_apply, minimumf_apply, maximumf_apply, addf_apply, divf_apply, broadcast_apply,
    roundeven, spread_at, column_at]
  rw [laneMin_at, laneMax_at]
  simp only [addf_apply, Cert.KernelIdeal.Dots.lowRank_apply, Ideal.ofBits_def, Ideal.roundeven_def, zero_pattern_sub,
    quantizeRow, quantize, zeroPoint, step, rne]
  rfl

end Cert.KernelIdeal.QuantBody

end
-- ==== Proof.QuantBlock.lean ====
/-
  The quantizing body's stored value against the whole arrays: at (p, i) it is `qWeights` at (R, i) of any three arrays
  that hold, on row R of the first two and everywhere on the third, what the body's three blocks hold on their row p.
-/
import proofs.«153178_j27273042330117_2_alg».proof.Proof.QuantBody

noncomputable section

open scoped BigOperators

namespace Cert.KernelIdeal.QuantBody

open Cert.KernelIdeal Cert.KernelIdeal.Gen Idealize.ShloMosaic Idealize.ShloMosaic.ValueIdx
open Cert.QuantLinear

/-- A block's row `p` of effective weights is row `R` of the whole arrays' when the blocks' rows are. -/
theorem blkRow_eq_effRow (x1 : Vec Ideal S128x192 .f32) (x2 : Vec Ideal S192x4096 .f32) (x0 : Vec Ideal S128x4096 .f32)
    (A1 : (⟨2, ![11008, 4096]⟩ : Shape).Idx → EReal) (A2 : (⟨2, ![11008, 192]⟩ : Shape).Idx → EReal)
    (A3 : (⟨2, ![192, 4096]⟩ : Shape).Idx → EReal) (p : Fin 128) (R : Fin 11008)
    (h0 : ∀ d : Fin 4096, x0 (ix2 p d) = A1 (ix2 R d)) (h1 : ∀ k : Fin 192, x1 (ix2 p k) = A2 (ix2 R k))
    (h2 : ∀ (k : Fin 192) (d : Fin 4096), x2 (ix2 k d) = A3 (ix2 k d)) :
    blkRow x1 x2 x0 p = effRow A1 A2 A3 R := by
  funext d
  unfold blkRow effRow
  rw [h0 d]
  exact congrArg (A1 (ix2 R d) + ·) (Finset.sum_congr rfl fun k _ => by rw [h1 k, h2 k d])

/-- So the stored value at (p, i) is `qWeights` of the whole arrays at (R, i). -/
theorem pay_eq_qWeights (x1 : Vec Ideal S128x192 .f32) (x2 : Vec Ideal S192x4096 .f32) (x0 : Vec Ideal S128x4096 .f32)
    (A1 : (⟨2, ![11008, 4096]⟩ : Shape).Idx → EReal) (A2 : (⟨2, ![11008, 192]⟩ : Shape).Idx → EReal)
    (A3 : (⟨2, ![192, 4096]⟩ : Shape).Idx → EReal) (p : Fin 128) (i : Fin 4096) (R : Fin 11008)
    (h0 : ∀ d : Fin 4096, x0 (ix2 p d) = A1 (ix2 R d)) (h1 : ∀ k : Fin 192, x1 (ix2 p k) = A2 (ix2 R k))
    (h2 : ∀ (k : Fin 192) (d : Fin 4096), x2 (ix2 k d) = A3 (ix2 k d)) :
    k0_pay1 (F := Ideal) x1 x2 x0 (ix2 p i) = qWeights A1 A2 A3 (ix2 R i) := by
  rw [pay_at, blkRow_eq_effRow x1 x2 x0 A1 A2 A3 p R h0 h1 h2]
  rfl

end Cert.KernelIdeal.QuantBody

end
-- ==== Proof.QuantArray.lean ====
/-
  The quantizing region's result array is `qWeights` of the region's three input arrays.

  The grid has 86 points; point `t` reads rows `128 t … 128 t + 127` of the weights and of `Bd`, the whole of `Bu`,
  and writes back rows `128 t … 128 t + 127` of the result. A row's quantization depends on that row alone, so what a
  point writes back is its block of the one whole-array function `qWeights`; and the 86 blocks of 128 rows cover the
  11008 rows.
-/
import proofs.«153178_j27273042330117_2_alg».proof.Proof.Gen.KernelIdeal.Frame
import proofs.«153178_j27273042330117_2_alg».proof.Proof.QuantBlock
import Idealize.ShloMosaic.Lib.Pipeline.Value

set_option maxRecDepth 16384

noncomputable section

open scoped BigOperators

namespace Cert.KernelIdeal.QuantArray

open Cert.KernelIdeal Cert.KernelIdeal.Gen Idealize.ShloMosaic Idealize.ShloMosaic.TcCoe Idealize.ShloMosaic.ValueIdx Idealize.SL.Sem
open Idealize.ShloMosaic.Pipeline (Dat)
open Cert.QuantLinear Cert.KernelIdeal.QuantBody

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of the weights, of `Bd` and of the result move with the point,
    `Bu` stays, and no window moves along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at point `t` is rows `128 t …` of the weights. -/
theorem weight_blk (c : Dev nD) (t : Fin cfg0.N) (y : S128x4096.Idx) (k : S11008x4096.Idx)
    (hk0 : (k 0).val = t.val * 128 + (y 0).val) (hk1 : (k 1).val = (y 1).val) :
    (iblk0 V c 0 t : Vec Ideal S128x4096 .f32) y = (V c main_arg1 : S11008x4096.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 128 + 1 * (y 0).val = (k 0).val; rw [e0, hk0]; omega
  | ⟨1, _⟩ => show win0_0.index t 1 * 4096 + 1 * (y 1).val = (k 1).val; rw [e1, hk1]; omega

/-- `Bd`'s block at point `t` is rows `128 t …` of `Bd`. -/
theorem bd_blk (c : Dev nD) (t : Fin cfg0.N) (y : S128x192.Idx) (k : S11008x192.Idx)
    (hk0 : (k 0).val = t.val * 128 + (y 0).val) (hk1 : (k 1).val = (y 1).val) :
    (iblk0 V c 1 t : Vec Ideal S128x192 .f32) y = (V c main_arg2 : S11008x192.Idx → EReal) k := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (k 0).val; rw [e0, hk0]; omega
  | ⟨1, _⟩ => show win0_1.index t 1 * 192 + 1 * (y 1).val = (k 1).val; rw [e1, hk1]; omega

/-- `Bu`'s block at every point is `Bu`. -/
theorem bu_blk (c : Dev nD) (t : Fin cfg0.N) (y : S192x4096.Idx) :
    (iblk0 V c 2 t : Vec Ideal S192x4096 .f32) y = (V c main_arg3 : S192x4096.Idx → EReal) y := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t 0 * 192 + 1 * (y 0).val = (y 0).val; rw [e0]; omega
  | ⟨1, _⟩ => show win0_2.index t 1 * 4096 + 1 * (y 1).val = (y 1).val; rw [e1]; omega

/-- WHAT POINT `t` WRITES BACK is block `t` of `qWeights` of the arrays as the region finds them. -/
theorem flushed_eq (c : Dev nD) (t : Fin cfg0.N) :
    (dat0 V c).flushed 3 t
      = ((cfg0.win 3).blk t).view.read (Elt Ideal) (qWeights (V c main_arg1) (V c main_arg2) (V c main_arg3)) := by
  show (cfg0.win 3).cut (grid0.coords t) ((dat0 V c).after 3 t) = _
  rw [after0_3]
  unfold out0_3
  rw [View.canon_unit_zero hz]
  simp only [View.ld_unit_zero (S := S128x192) hz, View.ld_unit_zero (S := S192x4096) hz, View.ld_unit_zero (S := S128x4096) hz]
  have ht : t.val < 86 := lt_of_lt_of_eq t.isLt N_0
  obtain ⟨-, -, -, -, -, -, e6, e7⟩ := idx_facts t
  funext j
  obtain ⟨p, i, rfl⟩ : ∃ (p : Fin 128) (i : Fin 4096), j = ix2 p i := ⟨j 0, j 1, eq_ix2 j⟩
  have hemb : ((cfg0.win 3).blk t).view.emb (ix2 p i) = ix2 (⟨t.val * 128 + p.val, by omega⟩ : Fin 11008) i := by
    funext a
    apply Fin.ext
    match a with
    | ⟨0, _⟩ => show win0_3.index t 0 * 128 + 1 * p.val = t.val * 128 + p.val; rw [e6]; omega
    | ⟨1, _⟩ => show win0_3.index t 1 * 4096 + 1 * i.val = i.val; rw [e7]; omega
  show k0_pay1 (F := Ideal) (iblk0 V c 1 t) (iblk0 V c 2 t) (iblk0 V c 0 t) (ix2 p i)
    = qWeights (V c main_arg1) (V c main_arg2) (V c main_arg3) (((cfg0.win 3).blk t).view.emb (ix2 p i))
  rw [hemb]
  exact pay_eq_qWeights (iblk0 V c 1 t) (iblk0 V c 2 t) (iblk0 V c 0 t) _ _ _ p i ⟨t.val * 128 + p.val, by omega⟩
    (fun d => weight_blk V c t (ix2 p d) (ix2 ⟨t.val * 128 + p.val, by omega⟩ d) rfl rfl)
    (fun k => bd_blk V c t (ix2 p k) (ix2 ⟨t.val * 128 + p.val, by omega⟩ k) rfl rfl)
    (fun k d => bu_blk V c t (ix2 k d))

/-- An index of the result array is in point `t`'s block iff each coordinate is in the block's range on its axis. -/
theorem mem_blk (t : Fin cfg0.N) (i : S11008x4096.Idx) :
    i ∈ ((cfg0.win 3).blk t).view.set
      ↔ ∀ a : Fin 2, win0_3.index t a * S128x4096.size a ≤ (i a).val ∧ (i a).val < win0_3.index t a * S128x4096.size a + S128x4096.size a := by
  show i ∈ ((View.whole main_v0).slice (win0_3.rect t)).set ↔ _
  rw [View.set_slice_whole, Rect.mem_set_unit]
  exact Iff.rfl

/-- Every row of the result array is in some point's block: row `r` in the block of point `r / 128`. -/
theorem cover (i : S11008x4096.Idx) : ∃ t : Fin cfg0.N, (cfg0.win 3).flush t = true ∧ i ∈ ((cfg0.win 3).blk t).view.set := by
  have hi0 : (i 0).val < 11008 := (i 0).isLt
  have hi1 : (i 1).val < 4096 := (i 1).isLt
  have hN : cfg0.N = 86 := N_0
  have hlt : (i 0).val / 128 < cfg0.N := by rw [hN]; omega
  refine ⟨⟨(i 0).val / 128, hlt⟩, flush0_3 _, ?_⟩
  rw [mem_blk]
  obtain ⟨-, -, -, -, -, -, e6, e7⟩ := idx_facts ⟨(i 0).val / 128, hlt⟩
  intro a
  match a with
  | ⟨0, _⟩ =>
    show win0_3.index ⟨(i 0).val / 128, hlt⟩ 0 * 128 ≤ (i 0).val ∧ (i 0).val < win0_3.index ⟨(i 0).val / 128, hlt⟩ 0 * 128 + 128
    rw [e6]
    show (i 0).val / 128 * 128 ≤ (i 0).val ∧ (i 0).val < (i 0).val / 128 * 128 + 128
    omega
  | ⟨1, _⟩ =>
    show win0_3.index ⟨(i 0).val / 128, hlt⟩ 1 * 4096 ≤ (i 1).val ∧ (i 1).val < win0_3.index ⟨(i 0).val / 128, hlt⟩ 1 * 4096 + 4096
    rw [e7]
    omega

/-- THE ARRAY after the region: `qWeights` of the three input arrays as the region finds them. -/
theorem final (c : Dev nD) :
    (dat0 V c).arrAt 3 cfg0.N = qWeights (V c main_arg1) (V c main_arg2) (V c main_arg3) :=
  (dat0 V c).arrAt_eq_of_cover 3 _ (fun t _ => flushed_eq V c t) cover

end Cert.KernelIdeal.QuantArray

end
-- ==== Proof.LinearBody.lean ====
/-
  The product body's stored value, on the extended reals, read at (r, q): the sum over the 4096 input coordinates k of
  the activations' block at (r, k) times the weights' block at (q, k), plus the bias row at q. (The two casts of a block
  to its own shape are the identity; the bias row [1, 256] is broadcast over the 1024 rows.)
-/
import proofs.«153178_j27273042330117_2_alg».proof.Proof.Gen.KernelIdeal.Skeleton
import proofs.«153178_j27273042330117_2_alg».proof.Proof.KernelDots
import Idealize.ShloMosaic.Lib.Pipeline.Value
import Idealize.ShloMosaic.Lib.ValueLayout

noncomputable section

open scoped BigOperators

namespace Cert.KernelIdeal.LinearBody

open Cert.KernelIdeal Cert.KernelIdeal.Gen Idealize.ShloMosaic Idealize.ShloMosaic.ValueIdx

/-- The linear layer on flattened activations: an [8192, 4096] matrix of activations against an [11008, 4096] matrix
    of weights, both contracted on their second axis, plus a bias row [1, 11008] — an [8192, 11008] matrix. -/
def flatLinear (X : (⟨2, ![8192, 4096]⟩ : Shape).Idx → EReal) (Wq : (⟨2, ![11008, 4096]⟩ : Shape).Idx → EReal)
    (B : (⟨2, ![1, 11008]⟩ : Shape).Idx → EReal) : (⟨2, ![8192, 11008]⟩ : Shape).Idx → EReal :=
  fun j => (∑ k : Fin 4096, X (ix2 (j 0) k) * Wq (ix2 (j 1) k)) + B (ix2 (0 : Fin 1) (j 1))

/-- The bias row broadcast over the rows reads, at (r, q), the row at (0, q). -/
theorem biasRow_at (v : FVec Ideal S1x256 .f32) (r : Fin 1024) (q : Fin 256) :
    broadcastTo S1024x256 v broadcasts_S1x256_S1024x256 (ix2 r q) = v (ix2 (0 : Fin 1) q) :=
  broadcastTo_1b_ab_apply v broadcasts_S1x256_S1024x256 r q

/-- THE STORED VALUE at (r, q). -/
theorem pay_at (x0 : Vec Ideal S1024x4096 .bf16) (x1 : Vec Ideal S256x4096 .bf16) (x2 : Vec Ideal S1x256 .f32)
    (r : Fin 1024) (q : Fin 256) :
    k1_pay1 (F := Ideal) x0 x1 x2 (ix2 r q) = (∑ k : Fin 4096, x0 (ix2 r k) * x1 (ix2 q k)) + x2 (ix2 (0 : Fin 1) q) := by
  unfold k1_pay1
  simp only [addf_apply, shapeCast_self, Cert.KernelIdeal.Dots.linear_apply, biasRow_at]

/-- So the stored value at (r, q) is `flatLinear` at (R, Q) of any three arrays that hold, on row R of the first, row Q of the
    second and column Q of the third, what the three blocks hold on their rows r and q and column q. -/
theorem pay_eq_flatLinear (x0 : Vec Ideal S1024x4096 .bf16) (x1 : Vec Ideal S256x4096 .bf16) (x2 : Vec Ideal S1x256 .f32)
    (X : (⟨2, ![8192, 4096]⟩ : Shape).Idx → EReal) (Wq : (⟨2, ![11008, 4096]⟩ : Shape).Idx → EReal)
    (B : (⟨2, ![1, 11008]⟩ : Shape).Idx → EReal) (r : Fin 1024) (q : Fin 256) (R : Fin 8192) (Q : Fin 11008)
    (h0 : ∀ k : Fin 4096, x0 (ix2 r k) = X (ix2 R k)) (h1 : ∀ k : Fin 4096, x1 (ix2 q k) = Wq (ix2 Q k))
    (h2 : x2 (ix2 (0 : Fin 1) q) = B (ix2 (0 : Fin 1) Q)) :
    k1_pay1 (F := Ideal) x0 x1 x2 (ix2 r q) = flatLinear X Wq B (ix2 R Q) := by
  rw [pay_at, h2]
  show _ = (∑ k : Fin 4096, X (ix2 R k) * Wq (ix2 Q k)) + B (ix2 (0 : Fin 1) Q)
  exact congrArg (· + B (ix2 (0 : Fin 1) Q)) (Finset.sum_congr rfl fun k _ => by rw [h0 k, h1 k])

end Cert.KernelIdeal.LinearBody

end
-- ==== Proof.LinearArray.lean ====
/-
  The product region's result array is `flatLinear` of the region's three input arrays.

  The grid is 8 × 43 points, point `t` at (t / 43, t % 43): it reads rows `1024 (t / 43) …` of the flattened
  activations, rows `256 (t % 43) …` of the quantized weights and columns `256 (t % 43) …` of the bias row, and
  writes back the [1024, 256] block at (t / 43, t % 43) of the [8192, 11008] result. Each block is the restriction of
  the one whole-array function, and the 8 × 43 blocks cover the result.
-/
import proofs.«153178_j27273042330117_2_alg».proof.Proof.Gen.KernelIdeal.Frame
import proofs.«153178_j27273042330117_2_alg».proof.Proof.LinearBody
import Idealize.ShloMosaic.Lib.Pipeline.Value

set_option maxRecDepth 16384

noncomputable section

open scoped BigOperators

namespace Cert.KernelIdeal.LinearArray

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.LinearBody

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' row block follows the first grid coordinate, the weights' row
    block and the bias's column block the second, the result's block both. -/
theorem idx_facts : ∀ t : Fin cfg1.N, win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = 0 ∧ win1_2.index t (1 : Fin 2) = t.val % 43
    ∧ win1_3.index t (0 : Fin 2) = t.val / 43 ∧ win1_3.index t (1 : Fin 2) = t.val % 43 :=
  (by decide +kernel : ∀ t : Fin grid1.N, _)

/-- The activations' block at point `t` is rows `1024 (t / 43) …` of the flattened activations. -/
theorem act_blk (c : Dev nD) (t : Fin cfg1.N) (y : S1024x4096.Idx) (k : S8192x4096.Idx)
    (hk0 : (k 0).val = t.val / 43 * 1024 + (y 0).val) (hk1 : (k 1).val = (y 1).val) :
    (iblk1 V c 0 t : Vec Ideal S1024x4096 .bf16) y = (V c main_v2 : S8192x4096.Idx → EReal) k := by
  obtain ⟨e0, e1, -⟩ := idx_facts t
  unfold iblk1
  rw [View.read_apply]
  show V c main_v2 _ = V c main_v2 _
  congr 1
  funext a
  apply Fin.ext
  match a with
  | ⟨0, _⟩ => show win1_0.index t 0 * 1024 + 1 * (y 0).val = (k 0).val; rw [e0, hk0]; omega
  | ⟨1, _⟩ => show win1_0.index t 1 * 4096 + 1 * (y 1).val = (k 1).val; rw [e1, hk1]; omega

/-- The weights' block at point `t` is rows `256 (t % 43) …` of the quantized weights. -/
theorem wq_blk (c : Dev nD) (t : Fin cfg1.N) (y : S256x4096.Idx) (k : S11008x4096.Idx)
    (hk0 : (k 0).val = t.val % 43 * 256 + (y 0).val) (hk1 : (k 1).val = (y 1).val) :
    (iblk1 V c 1 t : Vec Ideal S256x4096 .bf16) y = (V c main_v0 : S11008x4096.Idx → EReal) k := by
  obtain ⟨-, -, e0, e1, -⟩ := idx_facts t
  unfold iblk1
  rw [View.read_apply]
  show V c main_v0 _ = V c main_v0 _
  congr 1
  funext a
  apply Fin.ext
  match a with
  | ⟨0, _⟩ => show win1_1.index t 0 * 256 + 1 * (y 0).val = (k 0).val; rw [e0, hk0]; omega
  | ⟨1, _⟩ => show win1_1.index t 1 * 4096 + 1 * (y 1).val = (k 1).val; rw [e1, hk1]; omega

/-- The bias's block at point `t` is columns `256 (t % 43) …` of the bias row. -/
theorem bias_blk (c : Dev nD) (t : Fin cfg1.N) (y : S1x256.Idx) (k : S1x11008.Idx)
    (hk0 : (k 0).val = (y 0).val) (hk1 : (k 1).val = t.val % 43 * 256 + (y 1).val) :
    (iblk1 V c 2 t : Vec Ideal S1x256 .f32) y = (V c main_v3 : S1x11008.Idx → EReal) k := by
  obtain ⟨-, -, -, -, e0, e1, -⟩ := idx_facts t
  unfold iblk1
  rw [View.read_apply]
  show V c main_v3 _ = V c main_v3 _
  congr 1
  funext a
  apply Fin.ext
  match a with
  | ⟨0, _⟩ => show win1_2.index t 0 * 1 + 1 * (y 0).val = (k 0).val; rw [e0, hk0]; omega
  | ⟨1, _⟩ => show win1_2.index t 1 * 256 + 1 * (y 1).val = (k 1).val; rw [e1, hk1]; omega

/-- WHAT POINT `t` WRITES BACK is block `t` of `flatLinear` of the arrays as the region finds them. -/
theorem flushed_eq (c : Dev nD) (t : Fin cfg1.N) :
    (dat1 V c).flushed 3 t
      = ((cfg1.win 3).blk t).view.read (Elt Ideal) (flatLinear (V c main_v2) (V c main_v0) (V c main_v3)) := by
  show (cfg1.win 3).cut (grid1.coords t) ((dat1 V c).after 3 t) = _
  rw [after1_3]
  unfold out1_3
  rw [View.canon_unit_zero hz]
  simp only [View.ld_unit_zero (S := S1024x4096) hz, View.ld_unit_zero (S := S256x4096) hz, View.ld_unit_zero (S := S1x256) hz]
  have ht : t.val < 344 := lt_of_lt_of_eq t.isLt N_1
  obtain ⟨-, -, -, -, -, -, e6, e7⟩ := idx_facts t
  funext j
  obtain ⟨r, q, rfl⟩ : ∃ (r : Fin 1024) (q : Fin 256), j = ix2 r q := ⟨j 0, j 1, eq_ix2 j⟩
  have hemb : ((cfg1.win 3).blk t).view.emb (ix2 r q)
      = ix2 (⟨t.val / 43 * 1024 + r.val, by omega⟩ : Fin 8192) (⟨t.val % 43 * 256 + q.val, by omega⟩ : Fin 11008) := by
    funext a
    apply Fin.ext
    match a with
    | ⟨0, _⟩ => show win1_3.index t 0 * 1024 + 1 * r.val = t.val / 43 * 1024 + r.val; rw [e6]; omega
    | ⟨1, _⟩ => show win1_3.index t 1 * 256 + 1 * q.val = t.val % 43 * 256 + q.val; rw [e7]; omega
  show k1_pay1 (F := Ideal) (iblk1 V c 0 t) (iblk1 V c 1 t) (iblk1 V c 2 t) (ix2 r q)
    = flatLinear (V c main_v2) (V c main_v0) (V c main_v3) (((cfg1.win 3).blk t).view.emb (ix2 r q))
  rw [hemb]
  exact pay_eq_flatLinear (iblk1 V c 0 t) (iblk1 V c 1 t) (iblk1 V c 2 t) _ _ _ r q
    ⟨t.val / 43 * 1024 + r.val, by omega⟩ ⟨t.val % 43 * 256 + q.val, by omega⟩
    (fun k => act_blk V c t (ix2 r k) (ix2 ⟨t.val / 43 * 1024 + r.val, by omega⟩ k) rfl rfl)
    (fun k => wq_blk V c t (ix2 q k) (ix2 ⟨t.val % 43 * 256 + q.val, by omega⟩ k) rfl rfl)
    (bias_blk V c t (ix2 (0 : Fin 1) q) (ix2 (0 : Fin 1) ⟨t.val % 43 * 256 + q.val, by omega⟩) rfl rfl)

/-- An index of the result array is in point `t`'s block iff each coordinate is in the block's range on its axis. -/
theorem mem_blk (t : Fin cfg1.N) (i : S8192x11008.Idx) :
    i ∈ ((cfg1.win 3).blk t).view.set
      ↔ ∀ a : Fin 2, win1_3.index t a * S1024x256.size a ≤ (i a).val ∧ (i a).val < win1_3.index t a * S1024x256.size a + S1024x256.size a := by
  show i ∈ ((View.whole main_v4).slice (win1_3.rect t)).set ↔ _
  rw [View.set_slice_whole, Rect.mem_set_unit]
  exact Iff.rfl

/-- Every index of the result array is in some point's block: (r, o) in the block of point `43 (r / 1024) + o / 256`. -/
theorem cover (i : S8192x11008.Idx) : ∃ t : Fin cfg1.N, (cfg1.win 3).flush t = true ∧ i ∈ ((cfg1.win 3).blk t).view.set := by
  have hi0 : (i 0).val < 8192 := (i 0).isLt
  have hi1 : (i 1).val < 11008 := (i 1).isLt
  have hN : cfg1.N = 344 := N_1
  have hlt : (i 0).val / 1024 * 43 + (i 1).val / 256 < cfg1.N := by rw [hN]; omega
  refine ⟨⟨(i 0).val / 1024 * 43 + (i 1).val / 256, hlt⟩, flush1_3 _, ?_⟩
  rw [mem_blk]
  obtain ⟨-, -, -, -, -, -, e6, e7⟩ := idx_facts ⟨(i 0).val / 1024 * 43 + (i 1).val / 256, hlt⟩
  intro a
  match a with
  | ⟨0, _⟩ =>
    show win1_3.index ⟨(i 0).val / 1024 * 43 + (i 1).val / 256, hlt⟩ 0 * 1024 ≤ (i 0).val
      ∧ (i 0).val < win1_3.index ⟨(i 0).val / 1024 * 43 + (i 1).val / 256, hlt⟩ 0 * 1024 + 1024
    rw [e6]
    show ((i 0).val / 1024 * 43 + (i 1).val / 256) / 43 * 1024 ≤ (i 0).val
      ∧ (i 0).val < ((i 0).val / 1024 * 43 + (i 1).val / 256) / 43 * 1024 + 1024
    omega
  | ⟨1, _⟩ =>
    show win1_3.index ⟨(i 0).val / 1024 * 43 + (i 1).val / 256, hlt⟩ 1 * 256 ≤ (i 1).val
      ∧ (i 1).val < win1_3.index ⟨(i 0).val / 1024 * 43 + (i 1).val / 256, hlt⟩ 1 * 256 + 256
    rw [e7]
    show ((i 0).val / 1024 * 43 + (i 1).val / 256) % 43 * 256 ≤ (i 1).val
      ∧ (i 1).val < ((i 0).val / 1024 * 43 + (i 1).val / 256) % 43 * 256 + 256
    omega

/-- THE ARRAY after the region: `flatLinear` of the three input arrays as the region finds them. -/
theorem final (c : Dev nD) :
    (dat1 V c).arrAt 3 cfg1.N = flatLinear (V c main_v2) (V c main_v0) (V c main_v3) :=
  (dat1 V c).arrAt_eq_of_cover 3 _ (fun t _ => flushed_eq V c t) cover

end Cert.KernelIdeal.LinearArray

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KernelValue.lean ====
/-
  The idealized kernel's result is `Cert.QuantLinear.result` of its arguments.

  Between the two regions the host flattens the activations [4, 2048, 4096] to [8192, 4096] (row `2048 b + s` is the
  activations' (b, s); the change of float format that follows is the identity) and reshapes the bias to a row
  [1, 11008]; the product region then finds the quantizing region's result in place as its weights. After it the host
  splits the [8192, 11008] product back to [4, 2048, 11008]. So the result at (b, s, o) is the flattened linear layer at
  (2048 b + s, o): the activations' (b, s) against row `o` of the quantized effective weights, plus `bias o`.
-/
import proofs.«153178_j27273042330117_2_alg».proof.Proof.Run
import proofs.«153178_j27273042330117_2_alg».proof.Proof.QuantArray
import proofs.«153178_j27273042330117_2_alg».proof.Proof.LinearArray
import proofs.«153178_j27273042330117_2_alg».proof.Proof.LibFlatten
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx Idealize.SL.Sem
open Idealize.ShloMosaic.StableHlo
open Cert.QuantLinear Cert.KernelIdeal.LinearBody

variable (m : (ℓ : Loc nD τ sig) → Buf (Elt Ideal) ℓ) (ρ : Dev nD → PrngReg)

/-- The weights the product region finds are the quantizing region's result: no host operation in between writes them. -/
theorem entry_weights (c : Dev nD) :
    V2 m ρ c main_v0
      = qWeights (m ((c : Thread nD τ).loc main_arg1)) (m ((c : Thread nD τ).loc main_arg2)) (m ((c : Thread nD τ).loc main_arg3)) := by
  have h1 : W2 m ρ c (Proc.devRef .tc main_v0) = W1 m ρ c (Proc.devRef .tc main_v0) := by
    show StableHlo.after hostOps1 (W1 m ρ c) (Proc.devRef .tc main_v0) = _
    after_results
  show W2 m ρ c (Proc.devRef .tc main_v0) = _
  rw [h1]
  exact (W1_arr m ρ c 3).trans (Cert.KernelIdeal.QuantArray.final (V0 m ρ) c)

/-- The flattened activations the product region finds, at row `2048 b + s`: the activations' (b, s). -/
theorem entry_acts_at (c : Dev nD) (b : Fin 4) (s : Fin 2048) (k : Fin 4096) (r : Fin 8192) (hr : r.val = b.val * 2048 + s.val) :
    V2 m ρ c main_v2 (ix2 r k) = m ((c : Thread nD τ).loc main_arg0) (ix3 b s k) := by
  have e : (V2 m ρ c main_v2 : S8192x4096.Idx → EReal)
      = truncf (F := Ideal) .bf16 (shapeCast S8192x4096 (W1 m ρ c (Proc.devRef .tc main_arg0) : S4x2048x4096.Idx → EReal)
          shapeCasts_S4x2048x4096_S8192x4096) bitsLt_bf16_f32 := by
    show StableHlo.after hostOps1 (W1 m ρ c) (Proc.devRef .tc main_v2) = _
    after_results
    all_goals rfl
  rw [e, truncf_apply, Cert.LibFlatten.shapeCast_abc_nc_apply _ _ b s k r hr, W1_of_ne m ρ c main_arg0 (by decide)]

/-- The bias row the product region finds, at column `o`: `bias o`. -/
theorem entry_bias_at (c : Dev nD) (o : Fin 11008) :
    V2 m ρ c main_v3 (ix2 (0 : Fin 1) o) = m ((c : Thread nD τ).loc main_arg4) (ix1 o) := by
  have e : V2 m ρ c main_v3 = shapeCast S1x11008 (W1 m ρ c (Proc.devRef .tc main_arg4)) shapeCasts_S11008_S1x11008 := by
    show StableHlo.after hostOps1 (W1 m ρ c) (Proc.devRef .tc main_v3) = _
    after_results
    all_goals rfl
  rw [e, shapeCast_a_1a_apply _ _ 0 o, W1_of_ne m ρ c main_arg4 (by decide)]

/-- The flattened linear layer at row `R` is the result at (b, s) when the flattened activations' row `R` is the activations'
    (b, s), the weights are the quantized effective weights and the bias row is the bias. -/
theorem flat_eq_result (X : (⟨2, ![8192, 4096]⟩ : Shape).Idx → EReal) (Wq : (⟨2, ![11008, 4096]⟩ : Shape).Idx → EReal)
    (B : (⟨2, ![1, 11008]⟩ : Shape).Idx → EReal) (x : (⟨3, ![4, 2048, 4096]⟩ : Shape).Idx → EReal)
    (weight : (⟨2, ![11008, 4096]⟩ : Shape).Idx → EReal) (Bd : (⟨2, ![11008, 192]⟩ : Shape).Idx → EReal)
    (Bu : (⟨2, ![192, 4096]⟩ : Shape).Idx → EReal) (bias : (⟨1, ![11008]⟩ : Shape).Idx → EReal)
    (b : Fin 4) (s : Fin 2048) (o : Fin 11008) (R : Fin 8192)
    (hX : ∀ k : Fin 4096, X (ix2 R k) = x (ix3 b s k)) (hW : Wq = qWeights weight Bd Bu)
    (hB : B (ix2 (0 : Fin 1) o) = bias (ix1 o)) :
    flatLinear X Wq B (ix2 R o) = result x weight Bd Bu bias (ix3 b s o) := by
  subst hW
  show (∑ k : Fin 4096, X (ix2 R k) * qWeights weight Bd Bu (ix2 o k)) + B (ix2 (0 : Fin 1) o)
    = (∑ k : Fin 4096, x (ix3 b s k) * qWeights weight Bd Bu (ix2 o k)) + bias (ix1 o)
  rw [hB]
  exact congrArg (· + bias (ix1 o)) (Finset.sum_congr rfl fun k _ => by rw [hX k])

/-- THE RESULT the last stretch of host operations leaves. -/
theorem result_eq (c : Dev nD) :
    W4 m ρ c (Proc.devRef .tc main_v5)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have e : W4 m ρ c (Proc.devRef .tc main_v5)
      = shapeCast S4x2048x11008 (W3 m ρ c (Proc.devRef .tc main_v4)) shapeCasts_S8192x11008_S4x2048x11008 := by
    show StableHlo.after hostOps2 (W3 m ρ c) (Proc.devRef .tc main_v5) = _
    after_results
    all_goals rfl
  have f : W3 m ρ c (Proc.devRef .tc main_v4) = flatLinear (V2 m ρ c main_v2) (V2 m ρ c main_v0) (V2 m ρ c main_v3) :=
    (W3_arr m ρ c 3).trans (Cert.KernelIdeal.LinearArray.final (V2 m ρ) c)
  funext j
  obtain ⟨b, s, o, rfl⟩ : ∃ (b : Fin 4) (s : Fin 2048) (o : Fin 11008), j = ix3 b s o := ⟨j 0, j 1, j 2, eq_ix3 j⟩
  have hb : b.val < 4 := b.isLt
  have hs : s.val < 2048 := s.isLt
  rw [e, Cert.LibFlatten.shapeCast_nc_abc_apply _ _ b s o (⟨b.val * 2048 + s.val, by omega⟩ : Fin 8192) rfl, f]
  exact flat_eq_result _ _ _ _ _ _ _ _ b s o ⟨b.val * 2048 + s.val, by omega⟩
    (fun k => entry_acts_at m ρ c b s k ⟨b.val * 2048 + s.val, by omega⟩ rfl) (entry_weights m ρ c) (entry_bias_at m ρ c o)

/-- The run, read: the result buffer ends at `result` of the arguments, the arguments as launched. -/
theorem run : θ_run defs (onTc (τ := τ) (main (F := Ideal))) ⟨m, fun _ => 0, ρ⟩ (fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_result m ρ)

end Cert.KernelIdeal.Whole

end
-- ==== Proof.RefValue.lean ====
/-
  The reference's result, at the extended reals, is `Cert.QuantLinear.result` of its arguments.

  The reference is a straight line of host operations. Read one operation at a time at a row `o` (and a column `i`):
  the product of `Bd` and `Bu` added to the weights is row `o` of the effective weights; the two reductions over the
  second axis are that row's minimum and maximum; the broadcasts of the kept unit axis read the row's clamped extremes,
  step and zero point back at every column; the outlined clip is `min 15 (max 0 ·)`; and the last product contracts the
  activations' last axis with the quantized weights' second.
-/
import proofs.«153178_j27273042330117_2_alg».proof.Proof.Gen.ReferenceIdeal.Read
import proofs.«153178_j27273042330117_2_alg».proof.Proof.Spec
import proofs.«153178_j27273042330117_2_alg».proof.Proof.LibRowMin

noncomputable section

open scoped BigOperators

namespace Cert.ReferenceIdeal.RefValue

open Cert.ReferenceIdeal Cert.ReferenceIdeal.Gen Cert.ReferenceIdeal.Read Idealize.ShloMosaic Idealize.ShloMosaic.ValueIdx
open Cert.QuantLinear

variable (x1 : (⟨S11008x4096, .f32⟩ : BufTy).Contents (Elt Ideal)) (x2 : (⟨S11008x192, .f32⟩ : BufTy).Contents (Elt Ideal))
  (x3 : (⟨S192x4096, .f32⟩ : BufTy).Contents (Elt Ideal))

theorem reduces_rows : S11008x4096.Reduces [1] S11008 := by decide

/-- The weights plus the low-rank product, at (o, i): entry `i` of row `o` of the effective weights. -/
theorem eff_at (o : Fin 11008) (i : Fin 4096) : val_main_v1 (F := Ideal) x1 x2 x3 (ix2 o i) = effRow x1 x2 x3 o i := by
  rw [val_main_v1_apply, val_main_v0_apply]
  have el : ∀ k : Fin 192, lidx_main_v0 (ix2 o i) k = ix2 o k := fun k => funext fun a => Fin.ext (by
    match a with
    | ⟨0, _⟩ => rfl
    | ⟨1, _⟩ => rfl)
  have er : ∀ k : Fin 192, ridx_main_v0 (ix2 o i) k = ix2 k i := fun k => funext fun a => Fin.ext (by
    match a with
    | ⟨0, _⟩ => rfl
    | ⟨1, _⟩ => rfl)
  simp only [el, er]
  rfl

/-- The reduction by minimum over the second axis, at row `o`: the minimum of that row of the effective weights. -/
theorem min_at (o : Fin 11008) : val_main_v2 (F := Ideal) x1 x2 x3 (ix1 o) = rowMin (effRow x1 x2 x3 o) := by
  unfold val_main_v2
  rw [Cert.LibRowMin.hostReduce_minimumf_rows _ _ _ reduces_rows _ o]
  unfold rowMin
  rw [val_main_cst_apply]
  exact congrArg (fun f => (Finset.univ : Finset (Fin 4096)).fold min (Ideal.ofBits .f32 0x7F800000#32) f)
    (funext fun d => eff_at x1 x2 x3 o d)

/-- The reduction by maximum over the second axis, at row `o`: the maximum of that row of the effective weights. -/
theorem max_at (o : Fin 11008) : val_main_v6 (F := Ideal) x1 x2 x3 (ix1 o) = rowMax (effRow x1 x2 x3 o) := by
  unfold val_main_v6
  rw [Cert.LibRowMin.hostReduce_maximumf_rows _ _ _ reduces_rows _ o]
  unfold rowMax
  rw [val_main_cst_1_apply]
  exact congrArg (fun f => (Finset.univ : Finset (Fin 4096)).fold max (Ideal.ofBits .f32 0xFF800000#32) f)
    (funext fun d => eff_at x1 x2 x3 o d)

/-- The kept unit axis: the column index (o, 0) reads the reduced array at `o`. -/
theorem col_idx3 (o : Fin 11008) : idx_main_v3 (ix2 o (0 : Fin 1)) = ix1 o := funext fun a => Fin.ext (by
  match a with
  | ⟨0, _⟩ => rfl)
theorem col_idx7 (o : Fin 11008) : idx_main_v7 (ix2 o (0 : Fin 1)) = ix1 o := funext fun a => Fin.ext (by
  match a with
  | ⟨0, _⟩ => rfl)

/-- The clamped minimum of row `o`. -/
theorem lo_at (o : Fin 11008) : val_main_v5 (F := Ideal) x1 x2 x3 (ix2 o (0 : Fin 1))
    = min (rowMin (effRow x1 x2 x3 o)) (Ideal.ofBits .f32 0x00000000#32) := by
  rw [val_main_v5_apply, val_main_v3_apply, val_main_v4_apply, val_main_cst_0_apply, col_idx3, min_at]
  rfl

/-- The clamped maximum of row `o`. -/
theorem hi_at (o : Fin 11008) : val_main_v9 (F := Ideal) x1 x2 x3 (ix2 o (0 : Fin 1))
    = max (rowMax (effRow x1 x2 x3 o)) (Ideal.ofBits .f32 0x00000000#32) := by
  rw [val_main_v9_apply, val_main_v7_apply, val_main_v8_apply, val_main_cst_2_apply, col_idx7, max_at]
  rfl

/-- The step of row `o`. -/
theorem step_at (o : Fin 11008) : val_main_v14 (F := Ideal) x1 x2 x3 (ix2 o (0 : Fin 1))
    = step (rowMin (effRow x1 x2 x3 o)) (rowMax (effRow x1 x2 x3 o)) := by
  rw [val_main_v14_apply, val_main_v12_apply, val_main_v10_apply, val_main_v11_apply, val_main_cst_3_apply,
    val_main_v13_apply, val_main_cst_4_apply, lo_at, hi_at]
  rfl

/-- The zero point of row `o`. -/
theorem zero_at (o : Fin 11008) : val_main_v17 (F := Ideal) x1 x2 x3 (ix2 o (0 : Fin 1))
    = zeroPoint (rowMin (effRow x1 x2 x3 o)) (rowMax (effRow x1 x2 x3 o)) := by
  rw [val_main_v17_apply, val_main_v16_apply, val_main_v15_apply, lo_at, step_at]
  rfl

/-- A broadcast of the kept unit axis reads, at (o, i), the column at (o, 0). -/
theorem bc_idx (o : Fin 11008) (i : Fin 4096) : idx_main_v18 (ix2 o i) = ix2 o (0 : Fin 1) := funext fun a => Fin.ext (by
  match a with
  | ⟨0, _⟩ => rfl
  | ⟨1, _⟩ => rfl)

/-- THE QUANTIZED WEIGHTS: the reference's weight operand of its last product is `qWeights` of the arguments. -/
theorem weights_eq : val_main_v27 (F := Ideal) x1 x2 x3 = qWeights x1 x2 x3 := by
  funext j
  obtain ⟨o, i, rfl⟩ : ∃ (o : Fin 11008) (i : Fin 4096), j = ix2 o i := ⟨j 0, j 1, eq_ix2 j⟩
  have b18 : idx_main_v18 (ix2 o i) = ix2 o (0 : Fin 1) := bc_idx o i
  have b21 : idx_main_v21 (ix2 o i) = ix2 o (0 : Fin 1) := bc_idx o i
  have b24 : idx_main_v24 (ix2 o i) = ix2 o (0 : Fin 1) := bc_idx o i
  have b26 : idx_main_v26 (ix2 o i) = ix2 o (0 : Fin 1) := bc_idx o i
  rw [val_main_v27_apply, val_main_v25_apply, val_main_v26_apply, val_main_v23_apply, val_main_v24_apply,
    val_main_call2_v4_apply, val_main_call2_v3_apply, val_main_cst_6_apply, val_main_call2_v2_apply,
    val_main_call2_v1_apply, val_main_call2_v0_apply, val_main_cst_5_apply, val_main_v22_apply, val_main_v20_apply,
    val_main_v21_apply, val_main_v19_apply, val_main_v18_apply, b18, b21, b24, b26, step_at, zero_at, eff_at]
  rfl

/-- THE RESULT: the reference's last sum is `result` of its five arguments. -/
theorem result_eq (x0 : (⟨S4x2048x4096, .f32⟩ : BufTy).Contents (Elt Ideal)) (x4 : (⟨S11008, .f32⟩ : BufTy).Contents (Elt Ideal)) :
    val_main_v31 (F := Ideal) x0 x1 x2 x3 x4 = result x0 x1 x2 x3 x4 := by
  funext j
  obtain ⟨b, s, o, rfl⟩ : ∃ (b : Fin 4) (s : Fin 2048) (o : Fin 11008), j = ix3 b s o := ⟨j 0, j 1, j 2, eq_ix3 j⟩
  have el : ∀ k : Fin 4096, lidx_main_v28 (ix3 b s o) k = ix3 b s k := fun k => funext fun a => Fin.ext (by
    match a with
    | ⟨0, _⟩ => rfl
    | ⟨1, _⟩ => rfl
    | ⟨2, _⟩ => rfl)
  have er : ∀ k : Fin 4096, ridx_main_v28 (ix3 b s o) k = ix2 o k := fun k => funext fun a => Fin.ext (by
    match a with
    | ⟨0, _⟩ => rfl
    | ⟨1, _⟩ => rfl)
  have eb : idx_main_v29 (idx_main_v30 (ix3 b s o)) = ix1 o := funext fun a => Fin.ext (by
    match a with
    | ⟨0, _⟩ => rfl)
  rw [val_main_v31_apply, val_main_v28_apply, val_main_v30_apply, val_main_v29_apply, weights_eq, eb]
  simp only [el, er]
  rfl

end Cert.ReferenceIdeal.RefValue

end
-- ==== Proof.lean ====
/-
  The five claims about the quantized linear layer — the LoRA-composed weights `weight + Bd · Bu`, fake-quantized row by
  row to sixteen levels, applied to the activations, plus the bias — and their conjunction.

  The three frames: the two kernel programs by their generated frame certificates, the reference by its generated run
  with the result dropped. The idealization ledger is empty. The algebraic claim: on the extended reals both idealized
  programs end with their result at one function of the five arguments, `Cert.QuantLinear.result` — the kernel through
  its two regions' result arrays and the host reshapes between them (Proof/KernelValue.lean), the reference through its
  straight line of host operations read at an index (Proof/RefValue.lean). Nothing in the equality needs the inputs
  finite: the two sides are the same sums, minima, maxima, quotients and roundings of the same operands.
-/
import proofs.«153178_j27273042330117_2_alg».proof.Defs
import proofs.«153178_j27273042330117_2_alg».proof.Proof.Gen.Kernel
import proofs.«153178_j27273042330117_2_alg».proof.Proof.Gen.Kernel.Skeleton
import proofs.«153178_j27273042330117_2_alg».proof.Proof.Gen.Kernel.Launch
import proofs.«153178_j27273042330117_2_alg».proof.Proof.Gen.Kernel.Points
import proofs.«153178_j27273042330117_2_alg».proof.Proof.Gen.Kernel.Frame
import proofs.«153178_j27273042330117_2_alg».proof.Proof.Gen.KernelIdeal
import proofs.«153178_j27273042330117_2_alg».proof.Proof.Gen.KernelIdeal.Skeleton
import proofs.«153178_j27273042330117_2_alg».proof.Proof.Gen.KernelIdeal.Launch
import proofs.«153178_j27273042330117_2_alg».proof.Proof.Gen.KernelIdeal.Points
import proofs.«153178_j27273042330117_2_alg».proof.Proof.Gen.KernelIdeal.Frame
import proofs.«153178_j27273042330117_2_alg».proof.Proof.Gen.ReferenceIdeal
import proofs.«153178_j27273042330117_2_alg».proof.Proof.Gen.ReferenceIdeal.Run
import proofs.«153178_j27273042330117_2_alg».proof.Proof.Gen.ReferenceIdeal.Read
import proofs.«153178_j27273042330117_2_alg».proof.Proof.Gen.Pre_finite_inputs
import proofs.«153178_j27273042330117_2_alg».proof.Proof.KernelValue
import proofs.«153178_j27273042330117_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `result` of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
